-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3200000 : Shape := ⟨1, ![3200000]⟩
abbrev S200000x64 : Shape := ⟨2, ![200000, 64]⟩
abbrev S2x64x64 : Shape := ⟨3, ![2, 64, 64]⟩
abbrev S2x64 : Shape := ⟨2, ![2, 64]⟩
abbrev S64 : Shape := ⟨1, ![64]⟩
abbrev S_ : Shape := ⟨0, ![]⟩

class Facts : Prop where
  bcast_S_S3200000 : S_.BroadcastsInDim S3200000 (![] : Fin 0 → Fin S3200000.rank)
  reducesTo_S3200000_S_d0 : S3200000.ReducesTo [0] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_arg7 : FVec F S64 .f32) (main_v13 : IVec S_ 1) (main_v16 : IVec S2x64 1) : IVec S_ 1 :=
  let main_c_5 : IVec S_ 1 := constantI S_ 1 1#1
  let main_v17 : IVec S_ 1 := (fun x v => Host.reduce IntOp.andi x v reducesTo_S2x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : IVec S3200000 32) (main_arg1 : IVec S3200000 32) (main_arg2 : FVec F S3200000 .f32) (main_arg3 : FVec F S200000x64 .f32) (main_arg4 : FVec F S2x64x64 .f32) (main_arg5 : FVec F S2x64 .f32) (main_arg6 : FVec F S64 .f32) (main_arg7 : FVec F S64 .f32) : IVec S_ 1 :=
  let main_v0 : FVec F S3200000 .f32 := Host.absf main_arg2
  let main_cst : FVec F S_ .f32 := constant S_ .f32 0x7F800000#32
  let main_v1 : FVec F S3200000 .f32 := broadcastInDim S3200000 ![] bcast_S_S3200000 main_cst
  let main_v2 : IVec S3200000 1 := cmpf .olt main_v0 main_v1
  let main_c : IVec S_ 1 := constantI S_ 1 1#1
  let main_v3 : IVec S_ 1 := (fun x v => Host.reduce IntOp.andi x v reducesTo_S3200000_S_d0 h_S_) main_v2 main_c
  let main_v4 : FVec F S200000x64 .f32 := Host.absf main_arg3
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S2x64x64 .f32 := Host.absf main_arg4
  let main_cst_2 : FVec F S_ .f32 := constant S_ .f32 0x7F800000#32
  let main_v10 : FVec F S2x64x64 .f32 := broadcastInDim S2x64x64 ![] bcast_S_S2x64x64 main_cst_2
  let main_v11 : IVec S2x64x64 1 := cmpf .olt main_v9 main_v10
  let main_c_3 : IVec S_ 1 := constantI S_ 1 1#1
  let main_v12 : IVec S_ 1 := (fun x v => Host.reduce IntOp.andi x v reducesTo_S2x64x64_S_d0_1_2 h_S_) main_v11 main_c_3
  let main_v13 : IVec S_ 1 := andi main_v8 main_v12
  let main_v14 : FVec F S2x64 .f32 := Host.absf main_arg5
  let main_cst_4 : FVec F S_ .f32 := constant S_ .f32 0x7F800000#32
  let main_v15 : FVec F S2x64 .f32 := broadcastInDim S2x64 ![] bcast_S_S2x64 main_cst_4
  let main_v16 : IVec S2x64 1 := cmpf .olt main_v14 main_v15
  fn_part1 (F := F) main_arg6 main_arg7 main_v13 main_v16
-- ==== Kernel.lean ====
abbrev S3200000 : Shape := ⟨1, ![3200000]⟩
abbrev S200000x64 : Shape := ⟨2, ![200000, 64]⟩
abbrev S2x64x64 : Shape := ⟨3, ![2, 64, 64]⟩
abbrev S2x64 : Shape := ⟨2, ![2, 64]⟩
abbrev S64 : Shape := ⟨1, ![64]⟩
abbrev S3200000x1 : Shape := ⟨2, ![3200000, 1]⟩
abbrev S_ : Shape := ⟨0, ![]⟩
abbrev S3200000x64 : Shape := ⟨2, ![3200000, 64]⟩
abbrev S8000x64 : Shape := ⟨2, ![8000, 64]⟩
abbrev S1x64x64 : Shape := ⟨3, ![1, 64, 64]⟩
abbrev S64x64 : Shape := ⟨2, ![64, 64]⟩
abbrev S1x64 : Shape := ⟨2, ![1, 64]⟩
abbrev S8000 : Shape := ⟨1, ![8000]⟩
abbrev S8000x1 : Shape := ⟨2, ![8000, 1]⟩
abbrev S100000x64 : Shape := ⟨2, ![100000, 64]⟩

abbrev nBuf : Space → Nat
  | .hbm => 43
  | .vmem => 8
  | .smem => 0
  | _ => 0

abbrev bufTy : (tb : Table) → Fin (tcTables nBuf tb) → BufTy
  | .hbm, ⟨0, _⟩ => ⟨S3200000, .i32⟩
  | .hbm, ⟨1, _⟩ => ⟨S3200000, .i32⟩
  | .hbm, ⟨2, _⟩ => ⟨S3200000, .f32⟩
  | .hbm, ⟨3, _⟩ => ⟨S200000x64, .f32⟩
  | .hbm, ⟨4, _⟩ => ⟨S2x64x64, .f32⟩
  | .hbm, ⟨5, _⟩ => ⟨S2x64, .f32⟩
  | .hbm, ⟨6, _⟩ => ⟨S64, .f32⟩
  | .hbm, ⟨7, _⟩ => ⟨S64, .f32⟩
  | .hbm, ⟨8, _⟩ => ⟨S3200000x1, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S3200000x64, .f32⟩
  | .hbm, ⟨18, _⟩ => ⟨S3200000x64, .f32⟩
  | .hbm, ⟨19, _⟩ => ⟨S3200000x64, .f32⟩
  | .hbm, ⟨20, _⟩ => ⟨S_, .f32⟩
  | .hbm, ⟨21, _⟩ => ⟨S200000x64, .f32⟩
  | .hbm, ⟨22, _⟩ => ⟨S3200000x1, .i32⟩
  | .hbm, ⟨23, _⟩ => ⟨S200000x64, .f32⟩
  | .hbm, ⟨24, _⟩ => ⟨S3200000x1, .f32⟩
  | .hbm, ⟨25, _⟩ => ⟨S_, .i32⟩
  | .hbm, ⟨26, _⟩ => ⟨S3200000, .i32⟩
  | .hbm, ⟨27, _⟩ => ⟨S3200000, .i1⟩
  | .hbm, ⟨28, _⟩ => ⟨S_, .i32⟩
  | .hbm, ⟨29, _⟩ => ⟨S3200000, .i32⟩
  | .hbm, ⟨30, _⟩ => ⟨S3200000, .i32⟩
  | .hbm, ⟨31, _⟩ => ⟨S3200000, .i32⟩
  | .hbm, ⟨32, _⟩ => ⟨S3200000x1, .i32⟩
  | .hbm, ⟨33, _⟩ => ⟨S3200000x64, .f32⟩
  | .hbm, ⟨34, _⟩ => ⟨S3200000x64, .f32⟩
  | .hbm, ⟨35, _⟩ => ⟨S3200000x64, .f32⟩
  | .hbm, ⟨36, _⟩ => ⟨S_, .f32⟩
  | .hbm, ⟨37, _⟩ => ⟨S200000x64, .f32⟩
  | .hbm, ⟨38, _⟩ => ⟨S3200000x1, .i32⟩
  | .hbm, ⟨39, _⟩ => ⟨S200000x64, .f32⟩
  | .hbm, ⟨40, _⟩ => ⟨S200000x64, .f32⟩
  | .hbm, ⟨41, _⟩ => ⟨S100000x64, .f32⟩
  | .hbm, ⟨42, _⟩ => ⟨S100000x64, .f32⟩
  | .local _ .vmem, ⟨0, _⟩ => ⟨S8000x64, .f32⟩
  | .local _ .vmem, ⟨1, _⟩ => ⟨S8000x64, .f32⟩
  | .local _ .vmem, ⟨2, _⟩ => ⟨S2x64x64, .f32⟩
  | .local _ .vmem, ⟨3, _⟩ => ⟨S2x64, .f32⟩
  | .local _ .vmem, ⟨4, _⟩ => ⟨S64, .f32⟩
  | .local _ .vmem, ⟨5, _⟩ => ⟨S64, .f32⟩
  | .local _ .vmem, ⟨6, _⟩ => ⟨S8000x64, .f32⟩
  | .local _ .vmem, ⟨7, _⟩ => ⟨S8000x64, .f32⟩
  | _, _ => ⟨S3200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S200000x64 : S_.BroadcastsInDim S200000x64 (![] : Fin 0 → Fin S200000x64.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S2x64x64_S1x64x64_0_0_0 : ∀ a, (![0, 0, 0] : Fin 3 → Nat) a + S1x64x64.size a ≤ S2x64x64.size a
  h_S1x64x64 : 0 < S1x64x64.numel
  shapeCasts_S1x64x64_S64x64 : S1x64x64.ShapeCasts S64x64
  bitsLt_bf16_f32 : FTy.bits .bf16 < FTy.bits .f32
  inb_S2x64_S1x64_0_0 : ∀ a, (![0, 0] : Fin 2 → Nat) a + S1x64.size a ≤ S2x64.size a
  h_S1x64 : 0 < S1x64.numel
  shapeCasts_S1x64_S64 : S1x64.ShapeCasts S64
  transposes_S64x64_p1_0_S64x64 : S64x64.Transposes [1, 0] S64x64
  shapeCasts_S64_S1x64 : S64.ShapeCasts S1x64
  broadcasts_S1x64_S8000x64 : S1x64.Broadcasts S8000x64
  inb_S2x64x64_S1x64x64_1_0_0 : ∀ a, (![1, 0, 0] : Fin 3 → Nat) a + S1x64x64.size a ≤ S2x64x64.size a
  inb_S2x64_S1x64_1_0 : ∀ a, (![1, 0] : Fin 2 → Nat) a + S1x64.size a ≤ S2x64.size a
  reduces_S8000x64_S8000 : S8000x64.Reduces [1] S8000
  shapeCasts_S8000_S8000x1 : S8000.ShapeCasts S8000x1
  broadcasts_S8000x1_S8000x64 : S8000x1.Broadcasts S8000x64
  inb_S64_S64_0 : ∀ a, (![0] : Fin 1 → Nat) a + S64.size a ≤ S64.size a
  h_S64 : 0 < S64.numel
  slices_S200000x64_S100000x64_0_0 : S200000x64.Slices ![0, 0] S100000x64
  slices_S200000x64_S100000x64_100000_0 : S200000x64.Slices ![100000, 0] S100000x64
  gather_S200000x64_S3200000x1_S3200000x64_1_0_n_n_0_1_164_wf : GatherDims.WF S200000x64 S3200000x1 S3200000x64 [1] [0] [] [0] [] 1 ![1, 64]
  scatter_S200000x64_S3200000x1_S3200000x64_1_0_0_1_wf : ScatterDims.WF S200000x64 S3200000x1 S3200000x64 [1] [0] [0] 1
  dot_S8000x64_S64x64_S8000x64_1_0_0_1_n_n_wf : DotDims.WF S8000x64 S64x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S200000x64.size a
  hwx0_0 : ∀ i : grid0.Coords, EltTy.bits .f32 = 32 ∨ (Rect.block (s := S200000x64) S8000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x64x64.size a ≤ S2x64x64.size a
  hwx0_1 : ∀ i : grid0.Coords, EltTy.bits .f32 = 32 ∨ (Rect.block (s := S2x64x64) S2x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x64.size a ≤ S2x64.size a
  hwx0_2 : ∀ i : grid0.Coords, EltTy.bits .f32 = 32 ∨ (Rect.block (s := S2x64) S2x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x64.size a ≤ S200000x64.size a
  hwx0_5 : ∀ i : grid0.Coords, EltTy.bits .f32 = 32 ∨ (Rect.block (s := S200000x64) S8000x64.size (cc0_transform_5 i) (hinb0_5 i)).WholeWords (EltTy.packing .f32)

variable [Facts₀]

def gather_S200000x64_S3200000x1_S3200000x64_1_0_n_n_0_1_164 : GatherDims S200000x64 S3200000x1 S3200000x64 where
  offsetDims := [1]
  collapsedSliceDims := [0]
  operandBatchingDims := []
  startIndicesBatchingDims := []
  startIndexMap := [0]
  indexVectorDim := 1
  sliceSizes := ![1, 64]
  wf := gather_S200000x64_S3200000x1_S3200000x64_1_0_n_n_0_1_164_wf
def scatter_S200000x64_S3200000x1_S3200000x64_1_0_0_1 : ScatterDims S200000x64 S3200000x1 S3200000x64 where
  updateWindowDims := [1]
  insertedWindowDims := [0]
  scatterDimsToOperandDims := [0]
  indexVectorDim := 1
  wf := scatter_S200000x64_S3200000x1_S3200000x64_1_0_0_1_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf

abbrev win0_0 : Pipeline.Window sig grid0 :=
  Pipeline.Window.ofSpec (Memref.whole main_v25) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S2x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S2x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S8000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S3200000 : Shape := ⟨1, ![3200000]⟩
abbrev S200000x64 : Shape := ⟨2, ![200000, 64]⟩
abbrev S2x64x64 : Shape := ⟨3, ![2, 64, 64]⟩
abbrev S2x64 : Shape := ⟨2, ![2, 64]⟩
abbrev S64 : Shape := ⟨1, ![64]⟩
abbrev S3200000x1 : Shape := ⟨2, ![3200000, 1]⟩
abbrev S_ : Shape := ⟨0, ![]⟩
abbrev S3200000x64 : Shape := ⟨2, ![3200000, 64]⟩
abbrev S1x64x64 : Shape := ⟨3, ![1, 64, 64]⟩
abbrev S64x64 : Shape := ⟨2, ![64, 64]⟩
abbrev S1x64 : Shape := ⟨2, ![1, 64]⟩
abbrev S200000 : Shape := ⟨1, ![200000]⟩
abbrev S200000x1 : Shape := ⟨2, ![200000, 1]⟩
abbrev S100000x64 : Shape := ⟨2, ![100000, 64]⟩

abbrev nBuf : Space → Nat
  | .hbm => 95
  | .vmem => 0
  | .smem => 0
  | _ => 0

abbrev bufTy : (tb : Table) → Fin (tcTables nBuf tb) → BufTy
  | .hbm, ⟨0, _⟩ => ⟨S3200000, .i32⟩
  | .hbm, ⟨1, _⟩ => ⟨S3200000, .i32⟩
  | .hbm, ⟨2, _⟩ => ⟨S3200000, .f32⟩
  | .hbm, ⟨3, _⟩ => ⟨S200000x64, .f32⟩
  | .hbm, ⟨4, _⟩ => ⟨S2x64x64, .f32⟩
  | .hbm, ⟨5, _⟩ => ⟨S2x64, .f32⟩
  | .hbm, ⟨6, _⟩ => ⟨S64, .f32⟩
  | .hbm, ⟨7, _⟩ => ⟨S64, .f32⟩
  | .hbm, ⟨8, _⟩ => ⟨S3200000x1, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S3200000x64, .f32⟩
  | .hbm, ⟨18, _⟩ => ⟨S3200000x64, .f32⟩
  | .hbm, ⟨19, _⟩ => ⟨S3200000x64, .f32⟩
  | .hbm, ⟨20, _⟩ => ⟨S_, .f32⟩
  | .hbm, ⟨21, _⟩ => ⟨S200000x64, .f32⟩
  | .hbm, ⟨22, _⟩ => ⟨S3200000x1, .i32⟩
  | .hbm, ⟨23, _⟩ => ⟨S200000x64, .f32⟩
  | .hbm, ⟨24, _⟩ => ⟨S3200000x1, .f32⟩
  | .hbm, ⟨25, _⟩ => ⟨S_, .i32⟩
  | .hbm, ⟨26, _⟩ => ⟨S3200000, .i32⟩
  | .hbm, ⟨27, _⟩ => ⟨S3200000, .i1⟩
  | .hbm, ⟨28, _⟩ => ⟨S_, .i32⟩
  | .hbm, ⟨29, _⟩ => ⟨S3200000, .i32⟩
  | .hbm, ⟨30, _⟩ => ⟨S3200000, .i32⟩
  | .hbm, ⟨31, _⟩ => ⟨S3200000, .i32⟩
  | .hbm, ⟨32, _⟩ => ⟨S3200000x1, .i32⟩
  | .hbm, ⟨33, _⟩ => ⟨S3200000x64, .f32⟩
  | .hbm, ⟨34, _⟩ => ⟨S3200000x64, .f32⟩
  | .hbm, ⟨35, _⟩ => ⟨S3200000x64, .f32⟩
  | .hbm, ⟨36, _⟩ => ⟨S_, .f32⟩
  | .hbm, ⟨37, _⟩ => ⟨S200000x64, .f32⟩
  | .hbm, ⟨38, _⟩ => ⟨S3200000x1, .i32⟩
  | .hbm, ⟨39, _⟩ => ⟨S200000x64, .f32⟩
  | .hbm, ⟨40, _⟩ => ⟨S1x64x64, .f32⟩
  | .hbm, ⟨41, _⟩ => ⟨S64x64, .f32⟩
  | .hbm, ⟨42, _⟩ => ⟨S64x64, .f32⟩
  | .hbm, ⟨43, _⟩ => ⟨S200000x64, .f32⟩
  | .hbm, ⟨44, _⟩ => ⟨S1x64, .f32⟩
  | .hbm, ⟨45, _⟩ => ⟨S64, .f32⟩
  | .hbm, ⟨46, _⟩ => ⟨S1x64, .f32⟩
  | .hbm, ⟨47, _⟩ => ⟨S200000x64, .f32⟩
  | .hbm, ⟨48, _⟩ => ⟨S200000x64, .f32⟩
  | .hbm, ⟨49, _⟩ => ⟨S_, .f32⟩
  | .hbm, ⟨50, _⟩ => ⟨S200000x64, .f32⟩
  | .hbm, ⟨51, _⟩ => ⟨S200000x64, .f32⟩
  | .hbm, ⟨52, _⟩ => ⟨S200000x64, .f32⟩
  | .hbm, ⟨53, _⟩ => ⟨S1x64x64, .f32⟩
  | .hbm, ⟨54, _⟩ => ⟨S64x64, .f32⟩
  | .hbm, ⟨55, _⟩ => ⟨S64x64, .f32⟩
  | .hbm, ⟨56, _⟩ => ⟨S200000x64, .f32⟩
  | .hbm, ⟨57, _⟩ => ⟨S1x64, .f32⟩
  | .hbm, ⟨58, _⟩ => ⟨S64, .f32⟩
  | .hbm, ⟨59, _⟩ => ⟨S1x64, .f32⟩
  | .hbm, ⟨60, _⟩ => ⟨S200000x64, .f32⟩
  | .hbm, ⟨61, _⟩ => ⟨S200000x64, .f32⟩
  | .hbm, ⟨62, _⟩ => ⟨S_, .f32⟩
  | .hbm, ⟨63, _⟩ => ⟨S200000x64, .f32⟩
  | .hbm, ⟨64, _⟩ => ⟨S200000x64, .f32⟩
  | .hbm, ⟨65, _⟩ => ⟨S200000x64, .f32⟩
  | .hbm, ⟨66, _⟩ => ⟨S_, .f32⟩
  | .hbm, ⟨67, _⟩ => ⟨S200000, .f32⟩
  | .hbm, ⟨68, _⟩ => ⟨S200000x1, .f32⟩
  | .hbm, ⟨69, _⟩ => ⟨S_, .f32⟩
  | .hbm, ⟨70, _⟩ => ⟨S200000x1, .f32⟩
  | .hbm, ⟨71, _⟩ => ⟨S200000x1, .f32⟩
  | .hbm, ⟨72, _⟩ => ⟨S200000x64, .f32⟩
  | .hbm, ⟨73, _⟩ => ⟨S200000x64, .f32⟩
  | .hbm, ⟨74, _⟩ => ⟨S200000x64, .f32⟩
  | .hbm, ⟨75, _⟩ => ⟨S_, .f32⟩
  | .hbm, ⟨76, _⟩ => ⟨S200000, .f32⟩
  | .hbm, ⟨77, _⟩ => ⟨S200000x1, .f32⟩
  | .hbm, ⟨78, _⟩ => ⟨S_, .f32⟩
  | .hbm, ⟨79, _⟩ => ⟨S200000x1, .f32⟩
  | .hbm, ⟨80, _⟩ => ⟨S200000x1, .f32⟩
  | .hbm, ⟨81, _⟩ => ⟨S_, .f32⟩
  | .hbm, ⟨82, _⟩ => ⟨S200000x1, .f32⟩
  | .hbm, ⟨83, _⟩ => ⟨S200000x1, .f32⟩
  | .hbm, ⟨84, _⟩ => ⟨S200000x1, .f32⟩
  | .hbm, ⟨85, _⟩ => ⟨S200000x64, .f32⟩
  | .hbm, ⟨86, _⟩ => ⟨S200000x64, .f32⟩
  | .hbm, ⟨87, _⟩ => ⟨S1x64, .f32⟩
  | .hbm, ⟨88, _⟩ => ⟨S200000x64, .f32⟩
  | .hbm, ⟨89, _⟩ => ⟨S200000x64, .f32⟩
  | .hbm, ⟨90, _⟩ => ⟨S1x64, .f32⟩
  | .hbm, ⟨91, _⟩ => ⟨S200000x64, .f32⟩
  | .hbm, ⟨92, _⟩ => ⟨S200000x64, .f32⟩
  | .hbm, ⟨93, _⟩ => ⟨S100000x64, .f32⟩
  | .hbm, ⟨94, _⟩ => ⟨S100000x64, .f32⟩
  | _, _ => ⟨S3200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call0_cst : Ref sig .tc := ⟨.hbm, 49, rfl⟩
abbrev main_call0_v0 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call1_cst : Ref sig .tc := ⟨.hbm, 62, rfl⟩
abbrev main_call1_v0 : Ref sig .tc := ⟨.hbm, 63, rfl⟩
abbrev main_v46 : Ref sig .tc := ⟨.hbm, 64, rfl⟩
abbrev main_v47 : Ref sig .tc := ⟨.hbm, 65, rfl⟩
abbrev main_cst_4 : Ref sig .tc := ⟨.hbm, 66, rfl⟩
abbrev main_v48 : Ref sig .tc := ⟨.hbm, 67, rfl⟩
abbrev main_v49 : Ref sig .tc := ⟨.hbm, 68, rfl⟩
abbrev main_cst_5 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_6 : Ref sig .tc := ⟨.hbm, 75, rfl⟩
abbrev main_v55 : Ref sig .tc := ⟨.hbm, 76, rfl⟩
abbrev main_v56 : Ref sig .tc := ⟨.hbm, 77, rfl⟩
abbrev main_cst_7 : Ref sig .tc := ⟨.hbm, 78, rfl⟩
abbrev main_v57 : Ref sig .tc := ⟨.hbm, 79, rfl⟩
abbrev main_v58 : Ref sig .tc := ⟨.hbm, 80, rfl⟩
abbrev main_cst_8 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩

abbrev nD : Nat := 1
abbrev τ : Topo := Topo.v7x

variable {F : FTy → Type} [FloatOps F]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S200000x64 : S_.BroadcastsInDim S200000x64 (![] : Fin 0 → Fin S200000x64.rank)
  slices_S2x64x64_S1x64x64_0_0_0 : S2x64x64.Slices ![0, 0, 0] S1x64x64
  shapeCasts_S1x64x64_S64x64 : S1x64x64.ShapeCasts S64x64
  transposes_S64x64_S64x64_1_0 : S64x64.Transposes [1, 0] S64x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  slices_S2x64x64_S1x64x64_1_0_0 : S2x64x64.Slices ![1, 0, 0] S1x64x64
  slices_S2x64_S1x64_1_0 : S2x64.Slices ![1, 0] S1x64
  reducesTo_S200000x64_S200000_d1 : S200000x64.ReducesTo [1] S200000
  h_S_ : 0 < S_.numel
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S200000x1_S200000x64_0_1 : S200000x1.BroadcastsInDim S200000x64 (![0, 1] : Fin 2 → Fin S200000x64.rank)
  slices_S200000x64_S100000x64_0_0 : S200000x64.Slices ![0, 0] S100000x64
  slices_S200000x64_S100000x64_100000_0 : S200000x64.Slices ![100000, 0] S100000x64
  gather_S200000x64_S3200000x1_S3200000x64_1_0_n_n_0_1_164_wf : GatherDims.WF S200000x64 S3200000x1 S3200000x64 [1] [0] [] [0] [] 1 ![1, 64]
  scatter_S200000x64_S3200000x1_S3200000x64_1_0_0_1_wf : ScatterDims.WF S200000x64 S3200000x1 S3200000x64 [1] [0] [0] 1
  dot_S200000x64_S64x64_S200000x64_1_0_0_1_n_n_wf : DotDims.WF S200000x64 S64x64 S200000x64 [1] [0] [0] [1] [] []

variable [Facts₀]

def gather_S200000x64_S3200000x1_S3200000x64_1_0_n_n_0_1_164 : GatherDims S200000x64 S3200000x1 S3200000x64 where
  offsetDims := [1]
  collapsedSliceDims := [0]
  operandBatchingDims := []
  startIndicesBatchingDims := []
  startIndexMap := [0]
  indexVectorDim := 1
  sliceSizes := ![1, 64]
  wf := gather_S200000x64_S3200000x1_S3200000x64_1_0_n_n_0_1_164_wf
def scatter_S200000x64_S3200000x1_S3200000x64_1_0_0_1 : ScatterDims S200000x64 S3200000x1 S3200000x64 where
  updateWindowDims := [1]
  insertedWindowDims := [0]
  scatterDimsToOperandDims := [0]
  indexVectorDim := 1
  wf := scatter_S200000x64_S3200000x1_S3200000x64_1_0_0_1_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf

class Facts : Prop extends Facts₀ where

variable [Facts]
-- ==== Proof.Spec.lean ====
/-
  One row of the network, as a function of 64 extended reals.

  Every row of the node table is treated alone.  A residual dense layer sends a row e to
  max (W e + b, 0) + e, where (W e) q is the sum over k of e k · W q k (the weight matrix is applied transposed: entry
  q of the product pairs the row with row q of the weights).  After two such layers the row is normalised: its mean
  (the sum of its 64 entries divided by 64) is subtracted, the mean of the squares of what is left is the variance,
  and each centred entry is multiplied by the reciprocal square root of variance + ε, then by the scale g q, and the
  shift β q is added.  The three float constants — zero, 64 and ε — are kept as their words; both programs spell
  them with the same words, so they are never evaluated.

  The whole table of 200000 rows is the row function applied to every row: entry (r, q) of the result depends on
  row r of the table that enters it, on the two stacked weight matrices and bias rows, and on the scale and shift.
-/
import Idealize.ShloMosaic.PureOps.Ideal
import Idealize.ShloMosaic.Lib.ValueIdx

noncomputable section

namespace Cert.RowNet

open Idealize.ShloMosaic Idealize.ShloMosaic.ValueIdx

/-- A residual dense layer with a rectifier on one row: entry q is max (∑ₖ e k · W q k + b q, 0) + e q. -/
def dense (W : Fin 64 → Fin 64 → EReal) (b e : Fin 64 → EReal) : Fin 64 → EReal := fun q =>
  max ((∑ k : Fin 64, e k * W q k) + b q) (Ideal.ofBits .f32 0x00000000#32) + e q

/-- The mean of a row: the sum of its 64 entries divided by 64. -/
def mean (e : Fin 64 → EReal) : EReal := Ideal.div (∑ k : Fin 64, e k) (Ideal.ofBits .f32 0x42800000#32)

/-- A row with its mean subtracted from every entry. -/
def centred (e : Fin 64 → EReal) : Fin 64 → EReal := fun q => e q - mean e

/-- The reciprocal square root of the variance of a row (the mean of the squares of its centred entries) plus ε. -/
def invStd (e : Fin 64 → EReal) : EReal :=
  Ideal.rsqrt (mean (fun k => centred e k * centred e k) + Ideal.ofBits .f32 0x3727C5AC#32)

/-- Layer normalisation of one row with scale g and shift β. -/
def normalise (g β e : Fin 64 → EReal) : Fin 64 → EReal := fun q => centred e q * invStd e * g q + β q

/-- The whole row function: two residual dense layers, then the normalisation. -/
def row (W0 W1 : Fin 64 → Fin 64 → EReal) (b0 b1 g β e : Fin 64 → EReal) : Fin 64 → EReal :=
  normalise g β (dense W1 b1 (dense W0 b0 e))

/-- The row function applied to every row of a table E of 200000 rows: the weights of layer i are the matrix
    (i, ·, ·) of the stack Ws, its bias the row (i, ·) of bs. -/
def table (E : (⟨2, ![200000, 64]⟩ : Shape).Idx → EReal) (Ws : (⟨3, ![2, 64, 64]⟩ : Shape).Idx → EReal)
    (bs : (⟨2, ![2, 64]⟩ : Shape).Idx → EReal) (g β : (⟨1, ![64]⟩ : Shape).Idx → EReal) :
    (⟨2, ![200000, 64]⟩ : Shape).Idx → EReal := fun i =>
  row (fun q k => Ws (ix3 (0 : Fin 2) q k)) (fun q k => Ws (ix3 (1 : Fin 2) q k)) (fun q => bs (ix2 (0 : Fin 2) q))
    (fun q => bs (ix2 (1 : Fin 2) q)) (fun q => g (ix1 q)) (fun q => β (ix1 q))
    (fun k => E (ix2 (⟨(i 0).val, (i 0).isLt⟩ : Fin 200000) k)) (⟨(i 1).val, (i 1).isLt⟩ : Fin 64)

/-- The table at (r, q) is the row function on row r, at q. -/
theorem table_apply (E : (⟨2, ![200000, 64]⟩ : Shape).Idx → EReal) (Ws : (⟨3, ![2, 64, 64]⟩ : Shape).Idx → EReal)
    (bs : (⟨2, ![2, 64]⟩ : Shape).Idx → EReal) (g β : (⟨1, ![64]⟩ : Shape).Idx → EReal) (r : Fin 200000) (q : Fin 64) :
    table E Ws bs g β (ix2 r q)
      = row (fun q k => Ws (ix3 (0 : Fin 2) q k)) (fun q k => Ws (ix3 (1 : Fin 2) q k)) (fun q => bs (ix2 (0 : Fin 2) q))
          (fun q => bs (ix2 (1 : Fin 2) q)) (fun q => g (ix1 q)) (fun q => β (ix1 q)) (fun k => E (ix2 r k)) q := rfl

end Cert.RowNet

end
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.LibKeepdims.lean ====
/-
  A reduction over the last axis kept as a unit axis, read at an index.

  A vector of `a` numbers viewed as an `a × 1` column holds, at (i, u), the vector's entry i, whatever the unit
  coordinate u; and an `a × 1` column spread over `b` columns holds, at (p, c), the column's entry (p, 0): every
  entry of row p is that row's one number. Together they read the common pattern "sum each row, keep the axis,
  combine with the matrix again" at an entry (p, c) as the row sum of row p.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the one entry of the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibRowReduce.lean ====
/-
  Reductions along the last axis, read at a row.

  Over the extended reals a maximum reduction of an A × B matrix along its second axis is, at row p, the fold of max
  from the accumulator's value over the B entries of row p, and an add reduction is the sum of those entries; a
  host-side reduction of an N × A × B array along its last axis with a commutative associative body is, at (n, p),
  the fold from the initial value over the B entries (n, p, ·). The statements name each source index by its
  coordinates, so that a proof can rewrite the folded function entry by entry.
-/
import Idealize.ShloMosaic.PureOps.Ideal.Laws
import Idealize.ShloMosaic.Lib.ValueIdx

noncomputable section

namespace Cert.LibRowReduce

open Idealize.ShloMosaic Idealize.ShloMosaic.ValueIdx

/-- The source index over row p with last coordinate k is (p, k). -/
theorem lift_rows {A B : ℕ} (h : (⟨2, ![A, B]⟩ : Shape).Reduces [1] ⟨1, ![A]⟩) (p : Fin A) (k : Fin B) :
    h.lift (ix1 p) k = ix2 p k := by
  funext a; apply Fin.ext
  match a with
  | ⟨0, _⟩ => rfl
  | ⟨1, _⟩ => rfl

/-- A maximum reduction along the second axis, at row p: the fold of max over that row's entries. -/
theorem multiReduction_maximumf_rows {A B : ℕ} (src : FVec Ideal (⟨2, ![A, B]⟩ : Shape) .f32) (acc : BitVec 32)
    (h : (⟨2, ![A, B]⟩ : Shape).Reduces [1] ⟨1, ![A]⟩) (hφ : FKind.Formats .f32) (hacc : acc = FKind.maximumf.neutral .f32 hφ)
    (p : Fin A) :
    multiReduction .maximumf [1] ⟨1, ![A]⟩ src acc h hφ hacc (ix1 p)
      = (Finset.univ : Finset (Fin B)).fold max (Ideal.ofBits .f32 acc) (fun k => src (ix2 p k)) := by
  refine (Ideal.multiReduction_maximumf_single src acc h hφ hacc (ix1 p)).trans ?_
  show (Finset.univ : Finset (Fin B)).fold max (Ideal.ofBits .f32 acc) (fun k => src (h.lift (ix1 p) k)) = _
  exact congrArg (fun f => (Finset.univ : Finset (Fin B)).fold max (Ideal.ofBits .f32 acc) f)
    (funext fun k => congrArg src (lift_rows h p k))

/-- An add reduction along the second axis, at row p: the sum of that row's entries. -/
theorem multiReduction_add_rows {A B : ℕ} (src : FVec Ideal (⟨2, ![A, B]⟩ : Shape) .f32) (acc : BitVec 32)
    (h : (⟨2, ![A, B]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin B, src (ix2 p k) := by
  refine (Ideal.multiReduction_add_single src acc h hφ hacc (ix1 p)).trans ?_
  show ∑ k : Fin B, src (h.lift (ix1 p) k) = _
  exact Finset.sum_congr rfl fun k _ => congrArg src (lift_rows h p k)

/-- The source index over (n, p) with last coordinate k is (n, p, k). -/
theorem lift_last3 {N A B : ℕ} (h : (⟨3, ![N, A, B]⟩ : Shape).Reduces [2] ⟨2, ![N, A]⟩) (n : Fin N) (p : Fin A) (k : Fin B) :
    h.lift (ix2 n p) k = ix3 n p k := by
  funext a; apply Fin.ext
  match a with
  | ⟨0, _⟩ => rfl
  | ⟨1, _⟩ => rfl
  | ⟨2, _⟩ => rfl

/-- A host reduction along the last of three axes with a commutative associative body, at (n, p): the fold from the
    initial value over the entries (n, p, ·). -/
theorem hostReduce_last3 {α : Type} {N A B : ℕ} {u : Shape} (f : α → α → α) [Std.Commutative f] [Std.Associative f]
    (x : (⟨3, ![N, A, B]⟩ : Shape).Idx → α) (init : u.Idx → α)
    (h' : (⟨3, ![N, A, B]⟩ : Shape).ReducesTo [2] ⟨2, ![N, A]⟩) (h : (⟨3, ![N, A, B]⟩ : Shape).Reduces [2] ⟨2, ![N, A]⟩)
    (hu : 0 < u.numel) (n : Fin N) (p : Fin A) :
    Host.reduce f x init h' hu (ix2 n p)
      = (Finset.univ : Finset (Fin B)).fold f (init (Shape.Idx.first hu)) (fun k => x (ix3 n p k)) := by
  refine (Host.reduce_eq_fold_single f x init h' h hu (ix2 n p)).trans ?_
  show (Finset.univ : Finset (Fin B)).fold f (init (Shape.Idx.first hu)) (fun k => x (h.lift (ix2 n p) k)) = _
  exact congrArg (fun g => (Finset.univ : Finset (Fin B)).fold f (init (Shape.Idx.first hu)) g)
    (funext fun k => congrArg x (lift_last3 h n p k))

/-- The fold of max from b is at least b, so taking the maximum with b again changes nothing. -/
theorem max_fold_max_self {ι : Type} (s : Finset ι) (b : EReal) (g : ι → EReal) :
    max b (s.fold max b g) = s.fold max b g :=
  max_eq_right ((Finset.le_fold_max (s := s) (f := g) (b := b) (c := b)).2 (Or.inl le_rfl))

end Cert.LibRowReduce

end
-- ==== Proof.KernelRow.lean ====
/-
  The kernel body on one block of 8000 rows, read entry by entry.

  The body's stored value is a tree of whole-block operations on what it loads: the block of rows, the two weight
  matrices and bias rows, the scale and the shift.  Here each stage of that tree is named — a residual dense layer,
  the mean of every row kept as a column, the centring, the column of sums of squares, the final affine step — and
  read at an entry (p, q): entry (p, q) of the stored block is the row function of Spec applied to row p of the
  loaded block, at q.  Rounding the operands of the products to a shorter float format is the identity on the
  extended reals, the product with a transposed weight matrix pairs row p with row q of the weights, and a product
  accumulated into zero is the plain sum over the contracted axis.
-/
import proofs.«167645_j18580028522708_1_alg».proof.Proof.Gen.KernelIdeal.Skeleton
import proofs.«167645_j18580028522708_1_alg».proof.Proof.Spec
import proofs.«167645_j18580028522708_1_alg».proof.Proof.LibMatmul
import proofs.«167645_j18580028522708_1_alg».proof.Proof.LibKeepdims
import proofs.«167645_j18580028522708_1_alg».proof.Proof.LibRowReduce
import Idealize.ShloMosaic.Lib.ValueLayout
import Idealize.ShloMosaic.Lib.ValueIdx
import Idealize.ShloMosaic.Lib.Pipeline.Value

noncomputable section

namespace Cert.KernelIdeal.RowValue

open Idealize.ShloMosaic Idealize.ShloMosaic.ValueIdx Cert.KernelIdeal Cert.KernelIdeal.Gen Cert.RowNet

/-! ## The stages of the body, as whole-block functions -/

/-- One residual dense layer on a block: the block times the transposed weights into zero, plus the bias row spread
    over the rows, rectified, plus the block. -/
def layerV (w : FVec Ideal S1x64x64 .f32) (b : FVec Ideal S1x64 .f32) (x : FVec Ideal S8000x64 .f32) : FVec Ideal S8000x64 .f32 :=
  addf (maximumf (addf (FloatOps.matmul dot_S8000x64_S64x64_S8000x64_1_0_0_1_n_n none (truncf .bf16 x bitsLt_bf16_f32)
      (transpose S64x64 [1, 0] (truncf .bf16 (shapeCast S64x64 w shapeCasts_S1x64x64_S64x64) bitsLt_bf16_f32) transposes_S64x64_p1_0_S64x64)
      (constant S8000x64 .f32 0x00000000#32))
    (broadcastTo S8000x64 (shapeCast S1x64 (shapeCast S64 b shapeCasts_S1x64_S64) shapeCasts_S64_S1x64) broadcasts_S1x64_S8000x64))
    (broadcast S8000x64 (Scalar.ofBits .f32 0x00000000#32))) x

/-- The sum of every row, kept as a column. -/
def rowSumV (x : FVec Ideal S8000x64 .f32) : FVec Ideal S8000x1 .f32 :=
  shapeCast S8000x1 (multiReduction .add [1] S8000 x 0x00000000#32 reduces_S8000x64_S8000 (.inl rfl) rfl) shapeCasts_S8000_S8000x1

/-- Every row with its mean subtracted. -/
def centreV (x : FVec Ideal S8000x64 .f32) : FVec Ideal S8000x64 .f32 :=
  subf x (broadcastTo S8000x64 (divf (rowSumV x) (broadcast S8000x1 (Scalar.ofBits .f32 0x42800000#32))) broadcasts_S8000x1_S8000x64)

/-- The last step: the centred block times the reciprocal square root of (sums of squares / c + ε), times the scale
    row, plus the shift row. -/
def affineV (xc : FVec Ideal S8000x64 .f32) (ss : FVec Ideal S8000x1 .f32) (c : Ideal .f32) (g β : FVec Ideal S64 .f32) :
    FVec Ideal S8000x64 .f32 :=
  addf (mulf (mulf xc (broadcastTo S8000x64 (rsqrt (addf (divf ss (broadcast S8000x1 c))
      (broadcast S8000x1 (Scalar.ofBits .f32 0x3727C5AC#32)))) broadcasts_S8000x1_S8000x64))
    (broadcastTo S8000x64 (shapeCast S1x64 g shapeCasts_S64_S1x64) broadcasts_S1x64_S8000x64))
    (broadcastTo S8000x64 (shapeCast S1x64 β shapeCasts_S64_S1x64) broadcasts_S1x64_S8000x64)

/-- The three payloads of the body are these stages composed. -/
theorem pay2_eq (v0 : FVec Ideal S8000x64 .f32) (v2 : FVec Ideal S1x64x64 .f32) (v5 : FVec Ideal S1x64 .f32)
    (v16 : FVec Ideal S1x64x64 .f32) (v19 : FVec Ideal S1x64 .f32) :
    k0_pay2 (F := Ideal) v0 v2 v5 v16 v19
      = centreV (layerV v16 v19 (layerV v2 v5 (shapeCast S8000x64 v0 shapeCasts_S8000x64_S8000x64))) := rfl

theorem pay3_eq (v0 : FVec Ideal S8000x64 .f32) (v2 : FVec Ideal S1x64x64 .f32) (v5 : FVec Ideal S1x64 .f32)
    (v16 : FVec Ideal S1x64x64 .f32) (v19 : FVec Ideal S1x64 .f32) :
    k0_pay3 (F := Ideal) v0 v2 v5 v16 v19
      = rowSumV (mulf (k0_pay2 (F := Ideal) v0 v2 v5 v16 v19) (k0_pay2 (F := Ideal) v0 v2 v5 v16 v19)) := rfl

theorem pay1_eq (xc : FVec Ideal S8000x64 .f32) (ss : FVec Ideal S8000x1 .f32) (c : Ideal .f32) (g β : FVec Ideal S64 .f32) :
    k0_pay1 (F := Ideal) xc ss c g β = affineV xc ss c g β := rfl

/-! ## The product's dimension record: (row, contraction) on the left, (contraction, column) on the right -/

theorem lhs0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem lhs1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
theorem rhs0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
theorem rhs1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-! ## Each stage at an entry -/

/-- The transposed weight matrix at (k, q) is entry (0, q, k) of the loaded weights: rounding to the shorter format
    is the identity, and the transpose swaps the two coordinates. -/
theorem weightT_apply (w : FVec Ideal S1x64x64 .f32) (k q : Fin 64) :
    (transpose S64x64 [1, 0] (truncf (F := Ideal) .bf16 (shapeCast S64x64 w shapeCasts_S1x64x64_S64x64) bitsLt_bf16_f32)
      transposes_S64x64_p1_0_S64x64 (ix2 k q) : EReal) = w (ix3 (0 : Fin 1) q k) := by
  refine (transpose_ix2_apply (truncf (F := Ideal) .bf16 (shapeCast S64x64 w shapeCasts_S1x64x64_S64x64) bitsLt_bf16_f32)
    transposes_S64x64_p1_0_S64x64 k q).trans ?_
  exact shapeCast_1ab_ab_apply w shapeCasts_S1x64x64_S64x64 q k

/-- A dense layer at (p, q) is the row's layer of Spec at q, the weights read as W q k = w (0, q, k). -/
theorem layerV_apply (w : FVec Ideal S1x64x64 .f32) (b : FVec Ideal S1x64 .f32) (x : FVec Ideal S8000x64 .f32)
    (p : Fin 8000) (q : Fin 64) :
    layerV w b x (ix2 p q)
      = dense (fun q k => w (ix3 (0 : Fin 1) q k)) (fun q => b (ix2 (0 : Fin 1) q)) (fun k => x (ix2 p k)) q := by
  unfold layerV dense
  simp only [addf_apply, maximumf_apply, broadcast_apply]
  rw [LibMatmul.matmul_zero_ix2 dot_S8000x64_S64x64_S8000x64_1_0_0_1_n_n rfl rfl lhs0 lhs1 rhs0 rhs1]
  simp only [truncf_apply, broadcastTo_1b_ab_apply, shapeCast_a_1a_apply, shapeCast_1a_a_apply]
  exact congrArg (fun s : EReal => max (s + b (ix2 (0 : Fin 1) q)) (Ideal.ofBits .f32 0x00000000#32) + x (ix2 p q))
    (Finset.sum_congr rfl fun k _ => congrArg (fun y : EReal => x (ix2 p k) * y) (weightT_apply w k q))

theorem layerV_row (w : FVec Ideal S1x64x64 .f32) (b : FVec Ideal S1x64 .f32) (x : FVec Ideal S8000x64 .f32) (p : Fin 8000) :
    (fun k => layerV w b x (ix2 p k))
      = dense (fun q k => w (ix3 (0 : Fin 1) q k)) (fun q => b (ix2 (0 : Fin 1) q)) (fun k => x (ix2 p k)) :=
  funext fun k => layerV_apply w b x p k

/-- The column of row sums at (p, u) is the sum of row p. -/
theorem rowSumV_apply (x : FVec Ideal S8000x64 .f32) (p : Fin 8000) (u : Fin 1) :
    rowSumV x (ix2 p u) = ∑ k : Fin 64, x (ix2 p k) := by
  unfold rowSumV
  rw [LibKeepdims.shapeCast_a_a1_apply]
  exact LibRowReduce.multiReduction_add_rows x _ _ _ _ p

/-- The centred block at (p, q) is the centred row p at q. -/
theorem centreV_apply (x : FVec Ideal S8000x64 .f32) (p : Fin 8000) (q : Fin 64) :
    centreV x (ix2 p q) = centred (fun k => x (ix2 p k)) q := by
  unfold centreV centred mean
  simp only [subf_apply]
  rw [LibKeepdims.broadcastTo_a1_ab_apply]
  simp only [divf_apply, broadcast_apply]
  rw [rowSumV_apply]
  rfl

theorem centreV_row (x : FVec Ideal S8000x64 .f32) (p : Fin 8000) :
    (fun k => centreV x (ix2 p k)) = centred (fun k => x (ix2 p k)) :=
  funext fun k => centreV_apply x p k

/-- The last step at (p, q), for a centred block xc = centreV y and sums of squares of its rows. -/
theorem affineV_apply (y : FVec Ideal S8000x64 .f32) (g β : FVec Ideal S64 .f32) (p : Fin 8000) (q : Fin 64) :
    affineV (centreV y) (rowSumV (mulf (centreV y) (centreV y))) (Scalar.ofBits .f32 0x42800000#32) g β (ix2 p q)
      = normalise (fun q => g (ix1 q)) (fun q => β (ix1 q)) (fun k => y (ix2 p k)) q := by
  unfold affineV normalise invStd mean
  simp only [addf_apply, mulf_apply]
  rw [LibKeepdims.broadcastTo_a1_ab_apply, broadcastTo_1b_ab_apply, broadcastTo_1b_ab_apply, shapeCast_a_1a_apply,
    shapeCast_a_1a_apply]
  show centreV y (ix2 p q) * Ideal.rsqrt (Ideal.div (rowSumV (mulf (centreV y) (centreV y)) (ix2 p (0 : Fin 1)))
      (Ideal.ofBits .f32 0x42800000#32) + Ideal.ofBits .f32 0x3727C5AC#32) * g (ix1 q) + β (ix1 q) = _
  rw [rowSumV_apply, centreV_apply]
  simp only [mulf_apply, centreV_apply]

/-! ## The stored block at an entry -/

/-- Entry (p, q) of what the body stores is the row function applied to row p of the loaded block. -/
theorem payload_apply (v0 : FVec Ideal S8000x64 .f32) (v2 : FVec Ideal S1x64x64 .f32) (v5 : FVec Ideal S1x64 .f32)
    (v16 : FVec Ideal S1x64x64 .f32) (v19 : FVec Ideal S1x64 .f32) (g β : FVec Ideal S64 .f32) (p : Fin 8000) (q : Fin 64) :
    k0_pay1 (F := Ideal) (k0_pay2 v0 v2 v5 v16 v19) (k0_pay3 v0 v2 v5 v16 v19) (Scalar.ofBits .f32 0x42800000#32) g β (ix2 p q)
      = row (fun q k => v2 (ix3 (0 : Fin 1) q k)) (fun q k => v16 (ix3 (0 : Fin 1) q k)) (fun q => v5 (ix2 (0 : Fin 1) q))
          (fun q => v19 (ix2 (0 : Fin 1) q)) (fun q => g (ix1 q)) (fun q => β (ix1 q)) (fun k => v0 (ix2 p k)) q := by
  rw [pay1_eq, pay3_eq, pay2_eq, affineV_apply, layerV_row, layerV_row, shapeCast_self]
  rfl

end Cert.KernelIdeal.RowValue

end
-- ==== Proof.KernelBlocks.lean ====
/-
  From the blocks to the whole table, and through the two slices.

  The grid has 25 points; point t reads rows 8000 t … 8000 t + 7999 of the table of neighbour sums, and the whole
  stacks of weights and biases, the scale and the shift, and writes back the same rows of the output.  By the entry
  lemma of the body, entry (p, q) of what point t writes is the row function on row 8000 t + p of the table that
  enters; so every write-back is a block of ONE function of the arrays as the region finds them, the blocks cover the
  200000 rows (row r lies in the block of point r / 8000), and the output array ends as that function.  The two
  results of the program are the first and the second 100000 rows of it.
-/
import proofs.«167645_j18580028522708_1_alg».proof.Proof.Gen.KernelIdeal.Frame
import proofs.«167645_j18580028522708_1_alg».proof.Proof.KernelRow
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.TableValue

open Cert.KernelIdeal Cert.KernelIdeal.Gen Cert.RowNet

variable (m : (ℓ : Loc nD τ sig) → Buf (Elt Ideal) ℓ) (ρ : Dev nD → PrngReg)

theorem hz2 : (![0, 0] : Fin 2 → Nat) = fun _ => 0 := funext fun a => by fin_cases a <;> rfl

/-- The index maps, decided over the 25 points: the row windows move with the point along the rows, the other
    windows stay at block 0. -/
theorem idx_facts : ∀ t : Fin cfg0.N, win0_0.index t (0 : Fin 2) = t.val ∧ win0_0.index t (1 : Fin 2) = 0
    ∧ win0_5.index t (0 : Fin 2) = t.val ∧ win0_5.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0 ∧ win0_4.index t (0 : Fin 1) = 0 :=
  (by decide +kernel : ∀ t : Fin grid0.N, _)

theorem rowIdx_lt (t : Fin cfg0.N) (p : Fin 8000) : t.val * 8000 + p.val < 200000 := by
  have hN : cfg0.N = 25 := N_0
  have := t.isLt; have := p.isLt; omega

/-! ## A block of any array, read in coordinates -/

/-- Row p of point t's block of a table is row 8000 t + p of the table. -/
theorem readRows (t : Fin cfg0.N) (A : S200000x64.Idx → Ideal .f32) (p : Fin 8000) (k : Fin 64) :
    ((cfg0.win 0).blk t).view.read (Elt Ideal) A (ix2 p k) = A (ix2 ⟨t.val * 8000 + p.val, rowIdx_lt t p⟩ k) := by
  obtain ⟨h0, h1, -⟩ := idx_facts t
  rw [View.read_apply]
  show A (((cfg0.win 0).blk t).view.emb (ix2 p k)) = A (ix2 ⟨t.val * 8000 + p.val, rowIdx_lt t p⟩ k)
  refine congrArg A (funext fun a => Fin.ext ?_)
  match a with
  | ⟨0, _⟩ => show win0_0.index t 0 * 8000 + 1 * p.val = t.val * 8000 + p.val; rw [h0]; omega
  | ⟨1, _⟩ => show win0_0.index t 1 * 64 + 1 * k.val = k.val; rw [h1]; omega

/-- The output window's block at point t sits at the same rows. -/
theorem outIdx (t : Fin cfg0.N) (p : Fin 8000) (q : Fin 64) :
    ((cfg0.win 5).blk t).view.emb (ix2 p q) = ix2 ⟨t.val * 8000 + p.val, rowIdx_lt t p⟩ q := by
  obtain ⟨-, -, h0, h1, -⟩ := idx_facts t
  refine funext fun a => Fin.ext ?_
  match a with
  | ⟨0, _⟩ => show win0_5.index t 0 * 8000 + 1 * p.val = t.val * 8000 + p.val; rw [h0]; omega
  | ⟨1, _⟩ => show win0_5.index t 1 * 64 + 1 * q.val = q.val; rw [h1]; omega

/-- A window whose one block is its whole array reads the array itself (the stacked weights). -/
theorem readWhole1 (t : Fin cfg0.N) (A : S2x64x64.Idx → Ideal .f32) (i : S2x64x64.Idx) :
    ((cfg0.win 1).blk t).view.read (Elt Ideal) A i = A i := by
  obtain ⟨-, -, -, -, h0, h1, h2, -⟩ := idx_facts t
  rw [View.read_apply]
  show A (((cfg0.win 1).blk t).view.emb i) = A i
  refine congrArg A (funext fun a => Fin.ext ?_)
  match a with
  | ⟨0, _⟩ => show win0_1.index t 0 * 2 + 1 * (i 0).val = (i 0).val; rw [h0]; omega
  | ⟨1, _⟩ => show win0_1.index t 1 * 64 + 1 * (i 1).val = (i 1).val; rw [h1]; omega
  | ⟨2, _⟩ => show win0_1.index t 2 * 64 + 1 * (i 2).val = (i 2).val; rw [h2]; omega

/-- The same for the stacked biases. -/
theorem readWhole2 (t : Fin cfg0.N) (A : S2x64.Idx → Ideal .f32) (i : S2x64.Idx) :
    ((cfg0.win 2).blk t).view.read (Elt Ideal) A i = A i := by
  obtain ⟨-, -, -, -, -, -, -, h0, h1, -⟩ := idx_facts t
  rw [View.read_apply]
  show A (((cfg0.win 2).blk t).view.emb i) = A i
  refine congrArg A (funext fun a => Fin.ext ?_)
  match a with
  | ⟨0, _⟩ => show win0_2.index t 0 * 2 + 1 * (i 0).val = (i 0).val; rw [h0]; omega
  | ⟨1, _⟩ => show win0_2.index t 1 * 64 + 1 * (i 1).val = (i 1).val; rw [h1]; omega

/-- The same for the scale. -/
theorem readWhole3 (t : Fin cfg0.N) (A : S64.Idx → Ideal .f32) (i : S64.Idx) :
    ((cfg0.win 3).blk t).view.read (Elt Ideal) A i = A i := by
  obtain ⟨-, -, -, -, -, -, -, -, -, h0, -⟩ := idx_facts t
  rw [View.read_apply]
  show A (((cfg0.win 3).blk t).view.emb i) = A i
  refine congrArg A (funext fun a => Fin.ext ?_)
  match a with
  | ⟨0, _⟩ => show win0_3.index t 0 * 64 + 1 * (i 0).val = (i 0).val; rw [h0]; omega

/-- The same for the shift. -/
theorem readWhole4 (t : Fin cfg0.N) (A : S64.Idx → Ideal .f32) (i : S64.Idx) :
    ((cfg0.win 4).blk t).view.read (Elt Ideal) A i = A i := by
  obtain ⟨-, -, -, -, -, -, -, -, -, -, h0⟩ := idx_facts t
  rw [View.read_apply]
  show A (((cfg0.win 4).blk t).view.emb i) = A i
  refine congrArg A (funext fun a => Fin.ext ?_)
  match a with
  | ⟨0, _⟩ => show win0_4.index t 0 * 64 + 1 * (i 0).val = (i 0).val; rw [h0]; omega

/-- Entry j of point t's block of the output array is entry (8000 t + j₀, j₁) of the array. -/
theorem readOut (t : Fin cfg0.N) (G : S200000x64.Idx → Ideal .f32) (j : ((cfg0.win 5).xblock (grid0.coords t)).Idx)
    (h0 : (j 0).val < 8000) (h1 : (j 1).val < 64) :
    ((cfg0.win 5).blk t).view.read (Elt Ideal) G j
      = G (ix2 ⟨t.val * 8000 + (j 0).val, rowIdx_lt t ⟨(j 0).val, h0⟩⟩ (⟨(j 1).val, h1⟩ : Fin 64)) := by
  obtain ⟨-, -, e0, e1, -⟩ := idx_facts t
  rw [View.read_apply]
  show G (((cfg0.win 5).blk t).view.emb j) = G _
  refine congrArg G (funext fun a => Fin.ext ?_)
  match a with
  | ⟨0, _⟩ => show win0_5.index t 0 * 8000 + 1 * (j 0).val = t.val * 8000 + (j 0).val; rw [e0]; omega
  | ⟨1, _⟩ => show win0_5.index t 1 * 64 + 1 * (j 1).val = (j 1).val; rw [e1]; omega

/-! ## The body's loads from its blocks, and the stored block at an entry -/

/-- The load of the first weight matrix from the block of stacked weights. -/
theorem ldW0 (x : Vec Ideal S2x64x64 .f32) (q k : Fin 64) : View.ld x r0_1 (ix3 (0 : Fin 1) q k) = x (ix3 (0 : Fin 2) q k) := by
  show x (r0_1.emb (ix3 (0 : Fin 1) q k)) = _
  refine congrArg x (funext fun a => Fin.ext ?_)
  match a with
  | ⟨0, _⟩ => rfl
  | ⟨1, _⟩ => show 0 + 1 * q.val = q.val; omega
  | ⟨2, _⟩ => show 0 + 1 * k.val = k.val; omega

/-- The load of the second weight matrix. -/
theorem ldW1 (x : Vec Ideal S2x64x64 .f32) (q k : Fin 64) : View.ld x r0_3 (ix3 (0 : Fin 1) q k) = x (ix3 (1 : Fin 2) q k) := by
  show x (r0_3.emb (ix3 (0 : Fin 1) q k)) = _
  refine congrArg x (funext fun a => Fin.ext ?_)
  match a with
  | ⟨0, _⟩ => rfl
  | ⟨1, _⟩ => show 0 + 1 * q.val = q.val; omega
  | ⟨2, _⟩ => show 0 + 1 * k.val = k.val; omega

/-- The load of the first bias row. -/
theorem ldB0 (x : Vec Ideal S2x64 .f32) (q : Fin 64) : View.ld x r0_2 (ix2 (0 : Fin 1) q) = x (ix2 (0 : Fin 2) q) := by
  show x (r0_2.emb (ix2 (0 : Fin 1) q)) = _
  refine congrArg x (funext fun a => Fin.ext ?_)
  match a with
  | ⟨0, _⟩ => rfl
  | ⟨1, _⟩ => show 0 + 1 * q.val = q.val; omega

/-- The load of the second bias row. -/
theorem ldB1 (x : Vec Ideal S2x64 .f32) (q : Fin 64) : View.ld x r0_4 (ix2 (0 : Fin 1) q) = x (ix2 (1 : Fin 2) q) := by
  show x (r0_4.emb (ix2 (0 : Fin 1) q)) = _
  refine congrArg x (funext fun a => Fin.ext ?_)
  match a with
  | ⟨0, _⟩ => rfl
  | ⟨1, _⟩ => show 0 + 1 * q.val = q.val; omega

/-- The load of a whole row of 64 numbers (the scale, the shift). -/
theorem ldRow (x : Vec Ideal S64 .f32) (q : Fin 64) : View.ld x r0_5 (ix1 q) = x (ix1 q) := by
  show x (r0_5.emb (ix1 q)) = _
  refine congrArg x (funext fun a => Fin.ext ?_)
  match a with
  | ⟨0, _⟩ => show 0 + 1 * q.val = q.val; omega

/-- The row function depends on its seven arguments only through their values. -/
theorem row_congr {W0 W0' W1 W1' : Fin 64 → Fin 64 → EReal} {b0 b0' b1 b1' g g' β β' e e' : Fin 64 → EReal}
    (hW0 : ∀ q k, W0 q k = W0' q k) (hW1 : ∀ q k, W1 q k = W1' q k) (hb0 : ∀ q, b0 q = b0' q) (hb1 : ∀ q, b1 q = b1' q)
    (hg : ∀ q, g q = g' q) (hβ : ∀ q, β q = β' q) (he : ∀ k, e k = e' k) (q : Fin 64) :
    row W0 W1 b0 b1 g β e q = row W0' W1' b0' b1' g' β' e' q := by
  obtain rfl : W0 = W0' := funext fun q => funext fun k => hW0 q k
  obtain rfl : W1 = W1' := funext fun q => funext fun k => hW1 q k
  obtain rfl : b0 = b0' := funext hb0
  obtain rfl : b1 = b1' := funext hb1
  obtain rfl : g = g' := funext hg
  obtain rfl : β = β' := funext hβ
  obtain rfl : e = e' := funext he
  rfl

/-- Entry (p, q) of what the body leaves in the output's buffer, from the five input blocks: the row function on
    row p of the block of rows. -/
theorem out0_5_apply (x0 : Vec Ideal S8000x64 .f32) (x1 : Vec Ideal S2x64x64 .f32) (x2 : Vec Ideal S2x64 .f32)
    (x3 x4 : Vec Ideal S64 .f32) (p : Fin 8000) (q : Fin 64) :
    out0_5 (F := Ideal) x0 x1 x2 x3 x4 (ix2 p q)
      = row (fun q k => x1 (ix3 (0 : Fin 2) q k)) (fun q k => x1 (ix3 (1 : Fin 2) q k)) (fun q => x2 (ix2 (0 : Fin 2) q))
          (fun q => x2 (ix2 (1 : Fin 2) q)) (fun q => x3 (ix1 q)) (fun q => x4 (ix1 q)) (fun k => x0 (ix2 p k)) q := by
  unfold out0_5
  rw [View.canon_unit_zero hz2]
  refine (RowValue.payload_apply _ _ _ _ _ _ _ p q).trans ?_
  exact row_congr (fun q k => ldW0 x1 q k) (fun q k => ldW1 x1 q k) (fun q => ldB0 x2 q) (fun q => ldB1 x2 q)
    (fun q => ldRow x3 q) (fun q => ldRow x4 q)
    (fun k => congrFun (View.ld_unit_zero (S := S8000x64) hz2 _ x0) (ix2 p k)) q

end Cert.KernelIdeal.TableValue

end
-- ==== Proof.KernelTable.lean ====
/-
  The output array after the run, and the two results.

  What point t of the grid writes back is block t of ONE table: the row function applied to every row of the table
  of neighbour sums the region finds, with the weights, biases, scale and shift as it finds them.  The 25 blocks of
  8000 rows cover the 200000 rows, so the output array ends as that table, and the two results of the program are
  its first and its last 100000 rows.  The arguments end unchanged.
-/
import proofs.«167645_j18580028522708_1_alg».proof.Proof.Gen.KernelIdeal.Frame
import proofs.«167645_j18580028522708_1_alg».proof.Proof.KernelRow
import proofs.«167645_j18580028522708_1_alg».proof.Proof.KernelBlocks
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.TableValue

open Cert.KernelIdeal Cert.KernelIdeal.Gen Cert.RowNet

variable (m : (ℓ : Loc nD τ sig) → Buf (Elt Ideal) ℓ) (ρ : Dev nD → PrngReg)

/-- The table the output array ends at: the row function on every row of the table of neighbour sums, with the
    weights, biases, scale and shift as the region finds them. -/
def tableOut (c : Dev nD) : Buf (Elt Ideal) ((c : Thread nD τ).loc main_v26) :=
  table (V m c (Pipeline.arrRef spec0 0)) (V m c (Pipeline.arrRef spec0 1)) (V m c (Pipeline.arrRef spec0 2))
    (V m c (Pipeline.arrRef spec0 3)) (V m c (Pipeline.arrRef spec0 4))

/-! ## The input blocks at a point, entry by entry -/

theorem blkRows (c : Dev nD) (t : Fin cfg0.N) (p : Fin 8000) (k : Fin 64) :
    (iblk m c 0 t : Vec Ideal S8000x64 .f32) (ix2 p k)
      = (V m c (Pipeline.arrRef spec0 0) : S200000x64.Idx → Ideal .f32) (ix2 ⟨t.val * 8000 + p.val, rowIdx_lt t p⟩ k) := by
  unfold iblk
  exact readRows t (V m c (Pipeline.arrRef spec0 0)) p k

theorem blk1 (c : Dev nD) (t : Fin cfg0.N) (i : S2x64x64.Idx) :
    (iblk m c 1 t : Vec Ideal S2x64x64 .f32) i = (V m c (Pipeline.arrRef spec0 1) : S2x64x64.Idx → Ideal .f32) i := by
  unfold iblk
  exact readWhole1 t (V m c (Pipeline.arrRef spec0 1)) i

theorem blk2 (c : Dev nD) (t : Fin cfg0.N) (i : S2x64.Idx) :
    (iblk m c 2 t : Vec Ideal S2x64 .f32) i = (V m c (Pipeline.arrRef spec0 2) : S2x64.Idx → Ideal .f32) i := by
  unfold iblk
  exact readWhole2 t (V m c (Pipeline.arrRef spec0 2)) i

theorem blk3 (c : Dev nD) (t : Fin cfg0.N) (i : S64.Idx) :
    (iblk m c 3 t : Vec Ideal S64 .f32) i = (V m c (Pipeline.arrRef spec0 3) : S64.Idx → Ideal .f32) i := by
  unfold iblk
  exact readWhole3 t (V m c (Pipeline.arrRef spec0 3)) i

theorem blk4 (c : Dev nD) (t : Fin cfg0.N) (i : S64.Idx) :
    (iblk m c 4 t : Vec Ideal S64 .f32) i = (V m c (Pipeline.arrRef spec0 4) : S64.Idx → Ideal .f32) i := by
  unfold iblk
  exact readWhole4 t (V m c (Pipeline.arrRef spec0 4)) i

/-! ## The write-backs, the cover, the array -/

set_option maxHeartbeats 400000 in
/-- What point t writes back is block t of the table. -/
theorem flushed_eq (c : Dev nD) (t : Fin cfg0.N) :
    (dats m 0 c).flushed 5 t = ((cfg0.win 5).blk t).view.read (Elt Ideal) (tableOut m c) := by
  show (cfg0.win 5).cut (grid0.coords t) ((dats m 0 c).after 5 t) = _
  rw [after0_5]
  funext j
  have h0 : (j 0).val < 8000 := (j 0).isLt
  have h1 : (j 1).val < 64 := (j 1).isLt
  have hx : (cfg0.win 5).xinj (grid0.coords t) j = ix2 (⟨(j 0).val, h0⟩ : Fin 8000) (⟨(j 1).val, h1⟩ : Fin 64) :=
    funext fun a => Fin.ext (by match a with | ⟨0, _⟩ => rfl | ⟨1, _⟩ => rfl)
  rw [readOut t (tableOut m c) j h0 h1]
  show out0_5 (F := Ideal) (iblk m c 0 t) (iblk m c 1 t) (iblk m c 2 t) (iblk m c 3 t) (iblk m c 4 t)
      ((cfg0.win 5).xinj (grid0.coords t) j) = _
  rw [hx]
  refine (out0_5_apply _ _ _ _ _ _ _).trans ?_
  unfold tableOut
  rw [table_apply]
  exact row_congr (fun q k => blk1 m c t _) (fun q k => blk1 m c t _) (fun q => blk2 m c t _) (fun q => blk2 m c t _)
    (fun q => blk3 m c t _) (fun q => blk4 m c t _) (fun k => blkRows m c t ⟨(j 0).val, h0⟩ k) _

/-- An index of the array is in point t's block iff each coordinate is in the block's range. -/
theorem mem_blk (t : Fin cfg0.N) (i : S200000x64.Idx) :
    i ∈ ((cfg0.win 5).blk t).view.set ↔ ∀ a : Fin 2, win0_5.index t a * S8000x64.size a ≤ (i a).val
      ∧ (i a).val < win0_5.index t a * S8000x64.size a + S8000x64.size a := by
  show i ∈ ((View.whole main_v26).slice (win0_5.rect t)).set ↔ _
  rw [View.set_slice_whole, Rect.mem_set_unit]
  exact Iff.rfl

/-- Every row lies in some point's block: row r in the block of point r / 8000. -/
theorem cover (i : S200000x64.Idx) :
    ∃ t : Fin cfg0.N, (cfg0.win 5).flush t = true ∧ i ∈ ((cfg0.win 5).blk t).view.set := by
  have hi0 : (i 0).val < 200000 := (i 0).isLt
  have hi1 : (i 1).val < 64 := (i 1).isLt
  have hN : cfg0.N = 25 := N_0
  have ht : (i 0).val / 8000 < cfg0.N := by rw [hN]; omega
  obtain ⟨-, -, e0, e1, -⟩ := idx_facts ⟨(i 0).val / 8000, ht⟩
  refine ⟨⟨(i 0).val / 8000, ht⟩, flush0_5 _, ?_⟩
  rw [mem_blk]
  intro a
  match a with
  | ⟨0, _⟩ =>
    show win0_5.index ⟨(i 0).val / 8000, ht⟩ 0 * 8000 ≤ (i 0).val ∧ (i 0).val < win0_5.index ⟨(i 0).val / 8000, ht⟩ 0 * 8000 + 8000
    rw [e0]; show (i 0).val / 8000 * 8000 ≤ (i 0).val ∧ (i 0).val < (i 0).val / 8000 * 8000 + 8000; omega
  | ⟨1, _⟩ =>
    show win0_5.index ⟨(i 0).val / 8000, ht⟩ 1 * 64 ≤ (i 1).val ∧ (i 1).val < win0_5.index ⟨(i 0).val / 8000, ht⟩ 1 * 64 + 64
    rw [e1]; omega

/-- The output array after the run is the table. -/
theorem final (c : Dev nD) : (dats m 0 c).arrAt 5 cfg0.N = tableOut m c :=
  (dats m 0 c).arrAt_eq_of_cover 5 (tableOut m c) (fun t _ => flushed_eq m c t) cover

/-! ## The two results -/

set_option maxHeartbeats 400000 in
/-- The first result: the first 100000 rows of the table. -/
theorem tail0 (c : Dev nD) : Pipeline.afterTail₀ cfgs (dats m) 0 (V0 m) [hostOps1] c main_v27
    = extractStridedSlice S100000x64 ![0, 0] (tableOut m c) slices_S200000x64_S100000x64_0_0 := by
  unfold Pipeline.afterTail₀
  show StableHlo.after hostOps1 _ (Proc.devRef .tc main_v27) = _
  after_results
  exact congrArg (fun X => extractStridedSlice S100000x64 ![0, 0] X slices_S200000x64_S100000x64_0_0)
    ((Pipeline.withArrays_arr spec0 launch0.win.arr_inj c (V0 m c) (fun w => (dats m 0 c).arrAt w cfg0.N) 5).trans (final m c))

set_option maxHeartbeats 400000 in
/-- The second result: the last 100000 rows of the table. -/
theorem tail1 (c : Dev nD) : Pipeline.afterTail₀ cfgs (dats m) 0 (V0 m) [hostOps1] c main_v28
    = extractStridedSlice S100000x64 ![100000, 0] (tableOut m c) slices_S200000x64_S100000x64_100000_0 := by
  unfold Pipeline.afterTail₀
  show StableHlo.after hostOps1 _ (Proc.devRef .tc main_v28) = _
  after_results
  exact congrArg (fun X => extractStridedSlice S100000x64 ![100000, 0] X slices_S200000x64_S100000x64_100000_0)
    ((Pipeline.withArrays_arr spec0 launch0.win.arr_inj c (V0 m c) (fun w => (dats m 0 c).arrAt w cfg0.N) 5).trans (final m c))

/-- The table in terms of the arguments: the weights, biases, scale and shift are found as launched. -/
theorem tableOut_eq (c : Dev nD) :
    tableOut m c = table (V m c (Pipeline.arrRef spec0 0)) (m ((c : Thread nD τ).loc main_arg4)) (m ((c : Thread nD τ).loc main_arg5))
      (m ((c : Thread nD τ).loc main_arg6)) (m ((c : Thread nD τ).loc main_arg7)) := by
  unfold tableOut
  rw [show V m c (Pipeline.arrRef spec0 1) = _ from V_main_arg4 m c, show V m c (Pipeline.arrRef spec0 2) = _ from V_main_arg5 m c,
    show V m c (Pipeline.arrRef spec0 3) = _ from V_main_arg6 m c, show V m c (Pipeline.arrRef spec0 4) = _ from V_main_arg7 m c]

/-- The run, read: every weakly fair execution ends with the two results at the two halves of the table and the
    arguments unchanged. -/
theorem run : θ_run defs (onTc (τ := τ) (main (F := Ideal))) ⟨m, fun _ => 0, ρ⟩ fun r => ∀ c : Dev nD,
      r.2.mem ((c.tc : Thread nD τ).loc main_v27) = extractStridedSlice S100000x64 ![0, 0] (tableOut m c) slices_S200000x64_S100000x64_0_0
      ∧ r.2.mem ((c.tc : Thread nD τ).loc main_v28) = extractStridedSlice S100000x64 ![100000, 0] (tableOut m c) slices_S200000x64_S100000x64_100000_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v27 (Pipeline.mem_restRefs_of main_v27 (by decide) (by decide))).trans (tail0 m c),
      ((h c).2 main_v28 (Pipeline.mem_restRefs_of main_v28 (by decide) (by decide))).trans (tail1 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).1 2).trans (((dats m 0 c).arrAt_in 2 rfl _).trans ((A_eq m c 2).trans (V_main_arg5 m c))),
      ((h c).1 3).trans (((dats m 0 c).arrAt_in 3 rfl _).trans ((A_eq m c 3).trans (V_main_arg6 m c))),
      ((h c).1 4).trans (((dats m 0 c).arrAt_in 4 rfl _).trans ((A_eq m c 4).trans (V_main_arg7 m c)))⟩)
    (run_main m ρ)

end Cert.KernelIdeal.TableValue

end
-- ==== Proof.RefRow.lean ====
/-
  The reference's node table after the two dense layers and the normalisation, read entry by entry.

  The reference computes on the whole table of 200000 rows what the row function of Spec computes on one row: the
  table times the transposed weight matrix of each layer (a sum over the contracted axis, entry (r, q) pairing row r
  of the table with row q of the weights), the bias row spread over the rows, the rectifier, the residual; then row
  means, centring, row means of squares, the reciprocal square root, the scale and the shift.  Each stage is read
  at an entry (r, q) from the stages before it, and the index maps of the layout operations (a slice of the stacked
  weights, a reshape dropping a unit axis, a transpose, a row or a column spread over the table) are identified with
  plain coordinates.  The table that enters the first layer — the result of the two rounds of neighbour sums — is
  kept as one unopened term.  A sum over a row starts from the float zero, which is the real zero.
-/
import proofs.«167645_j18580028522708_1_alg».proof.Proof.Gen.ReferenceIdeal.Read
import proofs.«167645_j18580028522708_1_alg».proof.Proof.Spec

set_option Elab.async false

noncomputable section

namespace Cert.ReferenceIdeal.RowValue

open Idealize.ShloMosaic Idealize.ShloMosaic.ValueIdx Cert.ReferenceIdeal Cert.ReferenceIdeal.Gen Cert.ReferenceIdeal.Read Cert.RowNet

/-! ## The index maps of the layout operations, in coordinates -/

theorem lIdx29 (r : Fin 200000) (q k : Fin 64) : lidx_main_v29 (ix2 r q) k = ix2 r k :=
  funext fun a => Fin.ext (by match a with | ⟨0, _⟩ => rfl | ⟨1, _⟩ => rfl)

theorem lIdx40 (r : Fin 200000) (q k : Fin 64) : lidx_main_v40 (ix2 r q) k = ix2 r k :=
  funext fun a => Fin.ext (by match a with | ⟨0, _⟩ => rfl | ⟨1, _⟩ => rfl)

/-- Entry (k, q) of the first layer's transposed weight matrix is entry (0, q, k) of the stacked weights. -/
theorem wIdx0 (r : Fin 200000) (q k : Fin 64) :
    idx_main_v26 (idx_main_v27 (idx_main_v28 (ridx_main_v29 (ix2 r q) k))) = ix3 (0 : Fin 2) q k :=
  funext fun a => Fin.ext (by
    have hq := q.isLt; have hk := k.isLt
    match a with
    | ⟨0, _⟩ => rfl
    | ⟨1, _⟩ => show (q.val * 64 + k.val) / 64 % 64 = q.val; omega
    | ⟨2, _⟩ => show (q.val * 64 + k.val) % 64 = k.val; omega)

/-- Entry (k, q) of the second layer's transposed weight matrix is entry (1, q, k) of the stacked weights. -/
theorem wIdx1 (r : Fin 200000) (q k : Fin 64) :
    idx_main_v37 (idx_main_v38 (idx_main_v39 (ridx_main_v40 (ix2 r q) k))) = ix3 (1 : Fin 2) q k :=
  funext fun a => Fin.ext (by
    have hq := q.isLt; have hk := k.isLt
    match a with
    | ⟨0, _⟩ => rfl
    | ⟨1, _⟩ => show (q.val * 64 + k.val) / 64 % 64 = q.val; omega
    | ⟨2, _⟩ => show (q.val * 64 + k.val) % 64 = k.val; omega)

/-- The first layer's bias spread over the table reads, at (r, q), entry (0, q) of the stacked biases. -/
theorem bIdx0 (r : Fin 200000) (q : Fin 64) :
    idx_main_v30 (idx_main_v31 (idx_main_v32 (idx_main_v33 (ix2 r q)))) = ix2 (0 : Fin 2) q :=
  funext fun a => Fin.ext (by
    have hq := q.isLt
    match a with
    | ⟨0, _⟩ => rfl
    | ⟨1, _⟩ => show q.val % 64 = q.val; omega)

/-- The second layer's bias spread over the table reads, at (r, q), entry (1, q) of the stacked biases. -/
theorem bIdx1 (r : Fin 200000) (q : Fin 64) :
    idx_main_v41 (idx_main_v42 (idx_main_v43 (idx_main_v44 (ix2 r q)))) = ix2 (1 : Fin 2) q :=
  funext fun a => Fin.ext (by
    have hq := q.isLt
    match a with
    | ⟨0, _⟩ => rfl
    | ⟨1, _⟩ => show q.val % 64 = q.val; omega)

theorem sIdx48 (r : Fin 200000) (q k : Fin 64) : idx_main_v48 (idx_main_v49 (idx_main_v52 (ix2 r q))) k = ix2 r k :=
  funext fun a => Fin.ext (by match a with | ⟨0, _⟩ => rfl | ⟨1, _⟩ => rfl)

theorem sIdx55 (r : Fin 200000) (q k : Fin 64) : idx_main_v55 (idx_main_v56 (idx_main_v62 (ix2 r q))) k = ix2 r k :=
  funext fun a => Fin.ext (by match a with | ⟨0, _⟩ => rfl | ⟨1, _⟩ => rfl)

theorem gIdx (r : Fin 200000) (q : Fin 64) : idx_main_v64 (idx_main_v65 (ix2 r q)) = ix1 q :=
  funext fun a => Fin.ext (by match a with | ⟨0, _⟩ => rfl)

theorem bbIdx (r : Fin 200000) (q : Fin 64) : idx_main_v67 (idx_main_v68 (ix2 r q)) = ix1 q :=
  funext fun a => Fin.ext (by match a with | ⟨0, _⟩ => rfl)

/-! ## The stages at an entry -/

variable (x0 x1 : (⟨S3200000, .i32⟩ : BufTy).Contents (Elt Ideal)) (x2 : (⟨S3200000, .f32⟩ : BufTy).Contents (Elt Ideal)) (x3 : (⟨S200000x64, .f32⟩ : BufTy).Contents (Elt Ideal)) (x4 : (⟨S2x64x64, .f32⟩ : BufTy).Contents (Elt Ideal)) (x5 : (⟨S2x64, .f32⟩ : BufTy).Contents (Elt Ideal)) (x6 x7 : (⟨S64, .f32⟩ : BufTy).Contents (Elt Ideal))

/-- After the first layer, entry (r, q) is the layer of Spec on row r of the table that enters it. -/
theorem v36_apply (r : Fin 200000) (q : Fin 64) :
    val_main_v36 (F := Ideal) x0 x1 x2 x3 x4 x5 (ix2 r q)
      = dense (fun q k => x4 (ix3 (0 : Fin 2) q k)) (fun q => x5 (ix2 (0 : Fin 2) q))
          (fun k => val_main_v25 (F := Ideal) x0 x1 x2 x3 (ix2 r k)) q := by
  rw [val_main_v36_apply, val_main_v35_apply, val_main_v34_apply, val_main_v29_apply, val_main_v33_apply, val_main_v32_apply,
    val_main_v31_apply, val_main_v30_apply, val_main_call0_v0_apply, val_main_call0_cst_apply]
  simp only [val_main_v28_apply, val_main_v27_apply, val_main_v26_apply, lIdx29, wIdx0, bIdx0]
  generalize val_main_v25 (F := Ideal) x0 x1 x2 x3 = E
  rfl

/-- After the second layer. -/
theorem v47_apply (r : Fin 200000) (q : Fin 64) :
    val_main_v47 (F := Ideal) x0 x1 x2 x3 x4 x5 (ix2 r q)
      = dense (fun q k => x4 (ix3 (1 : Fin 2) q k)) (fun q => x5 (ix2 (1 : Fin 2) q))
          (fun k => val_main_v36 (F := Ideal) x0 x1 x2 x3 x4 x5 (ix2 r k)) q := by
  rw [val_main_v47_apply, val_main_v46_apply, val_main_v45_apply, val_main_v40_apply, val_main_v44_apply, val_main_v43_apply,
    val_main_v42_apply, val_main_v41_apply, val_main_call1_v0_apply, val_main_call1_cst_apply]
  simp only [val_main_v39_apply, val_main_v38_apply, val_main_v37_apply, lIdx40, wIdx1, bIdx1]
  generalize val_main_v36 (F := Ideal) x0 x1 x2 x3 x4 x5 = E
  rfl

/-- The centred table at (r, q) is the centred row r at q. -/
theorem v53_apply (r : Fin 200000) (q : Fin 64) :
    val_main_v53 (F := Ideal) x0 x1 x2 x3 x4 x5 (ix2 r q)
      = centred (fun k => val_main_v47 (F := Ideal) x0 x1 x2 x3 x4 x5 (ix2 r k)) q := by
  rw [val_main_v53_apply, val_main_v52_apply, val_main_v51_apply, val_main_v49_apply, val_main_v48_apply, val_main_v50_apply,
    val_main_cst_5_apply, val_main_cst_4_apply]
  simp only [sIdx48]
  generalize val_main_v47 (F := Ideal) x0 x1 x2 x3 x4 x5 = E
  unfold centred mean
  show E (ix2 r q) - Ideal.div (Ideal.ofBits .f32 0x00000000#32 + ∑ k : Fin 64, E (ix2 r k))
      (Ideal.ofBits .f32 0x42800000#32) = _
  rw [Ideal.ofBits_zero_f32, zero_add]

/-- A square of the centred table at (r, k) is the square of the centred row r at k. -/
theorem v54_apply (r : Fin 200000) (k : Fin 64) :
    val_main_v54 (F := Ideal) x0 x1 x2 x3 x4 x5 (ix2 r k)
      = centred (fun k => val_main_v47 (F := Ideal) x0 x1 x2 x3 x4 x5 (ix2 r k)) k
          * centred (fun k => val_main_v47 (F := Ideal) x0 x1 x2 x3 x4 x5 (ix2 r k)) k := by
  rw [val_main_v54_apply, v53_apply]
  generalize val_main_v47 (F := Ideal) x0 x1 x2 x3 x4 x5 = E
  rfl

/-- The table's last stage at (r, q) is the normalisation of row r of the table after the two layers, at q. -/
theorem v69_apply (r : Fin 200000) (q : Fin 64) :
    val_main_v69 (F := Ideal) x0 x1 x2 x3 x4 x5 x6 x7 (ix2 r q)
      = normalise (fun q => x6 (ix1 q)) (fun q => x7 (ix1 q))
          (fun k => val_main_v47 (F := Ideal) x0 x1 x2 x3 x4 x5 (ix2 r k)) q := by
  rw [val_main_v69_apply, val_main_v66_apply, val_main_v63_apply, val_main_v68_apply, val_main_v67_apply, val_main_v65_apply,
    val_main_v64_apply, val_main_v62_apply, val_main_v61_apply, val_main_v60_apply, val_main_v58_apply, val_main_v56_apply,
    val_main_v55_apply, val_main_v57_apply, val_main_v59_apply, val_main_cst_7_apply, val_main_cst_8_apply, val_main_cst_6_apply]
  rw [gIdx, bbIdx, v53_apply]
  simp only [sIdx55]
  rw [Finset.sum_congr rfl (fun k _ => v54_apply x0 x1 x2 x3 x4 x5 r k)]
  generalize val_main_v47 (F := Ideal) x0 x1 x2 x3 x4 x5 = E
  unfold normalise invStd mean
  show centred _ q * Ideal.rsqrt (Ideal.div (Ideal.ofBits .f32 0x00000000#32 + ∑ k : Fin 64, centred _ k * centred _ k)
      (Ideal.ofBits .f32 0x42800000#32) + Ideal.ofBits .f32 0x3727C5AC#32) * x6 (ix1 q) + x7 (ix1 q) = _
  rw [Ideal.ofBits_zero_f32, zero_add]

/-- The reference's table before its two slices, at (r, q): the row function on row r of the table of neighbour sums. -/
theorem rows_apply (r : Fin 200000) (q : Fin 64) :
    val_main_v69 (F := Ideal) x0 x1 x2 x3 x4 x5 x6 x7 (ix2 r q)
      = row (fun q k => x4 (ix3 (0 : Fin 2) q k)) (fun q k => x4 (ix3 (1 : Fin 2) q k)) (fun q => x5 (ix2 (0 : Fin 2) q))
          (fun q => x5 (ix2 (1 : Fin 2) q)) (fun q => x6 (ix1 q)) (fun q => x7 (ix1 q))
          (fun k => val_main_v25 (F := Ideal) x0 x1 x2 x3 (ix2 r k)) q := by
  rw [v69_apply]
  unfold row
  rw [show (fun k => val_main_v47 (F := Ideal) x0 x1 x2 x3 x4 x5 (ix2 r k)) = _ from funext fun k => v47_apply x0 x1 x2 x3 x4 x5 r k,
    show (fun k => val_main_v36 (F := Ideal) x0 x1 x2 x3 x4 x5 (ix2 r k)) = _ from funext fun k => v36_apply x0 x1 x2 x3 x4 x5 r k]

/-- The reference's table before its two slices is the row function on every row of the table of neighbour sums. -/
theorem table_eq :
    (val_main_v69 (F := Ideal) x0 x1 x2 x3 x4 x5 x6 x7 : S200000x64.Idx → EReal)
      = table (val_main_v25 (F := Ideal) x0 x1 x2 x3) x4 x5 x6 x7 := by
  funext i
  obtain ⟨r, q, rfl⟩ : ∃ (r : Fin 200000) (q : Fin 64), i = ix2 r q := ⟨i 0, i 1, eq_ix2 i⟩
  rw [rows_apply, RowNet.table_apply]

end Cert.ReferenceIdeal.RowValue

end
-- ==== Proof.HostChain.lean ====
/-
  The table that enters the dense layers is one function of the arguments in both programs.

  Before the row-wise part both programs run the same host operations on the same arguments: twice, the rows of the
  current table named by the column indices are gathered (a negative index wrapped by the table's height), each is
  scaled by its edge weight, and the scaled rows are added into the rows of a zero table named by the row indices.
  The kernel's program finds the result in the array its first window stages; the reference names it as a stage of
  its run.  The two are the same tree of the same operations with the same dimension records, so they agree by
  unfolding names alone: neither a gather nor a sum is opened.
-/
import proofs.«167645_j18580028522708_1_alg».proof.Proof.Gen.KernelIdeal.Frame
import proofs.«167645_j18580028522708_1_alg».proof.Proof.Gen.ReferenceIdeal.Read
import Idealize.ShloMosaic.Lib.StableHlo.Run
import Idealize.ShloMosaic.Lib.Tactic

noncomputable section

open Idealize.ShloMosaic Idealize.ShloMosaic.TcCoe Idealize.SL.Sem

namespace Cert.KernelIdeal.HostChain

open Cert.KernelIdeal Cert.KernelIdeal.Gen

variable (m : (ℓ : Loc nD τ sig) → Buf (Elt Ideal) ℓ)

set_option maxHeartbeats 8000000 in
/-- The array the first window stages holds the two rounds of neighbour sums of the arguments: the reference's
    stage of the same name. -/
theorem entry_table (c : Dev nD) :
    V m c (Pipeline.arrRef spec0 0)
      = Cert.ReferenceIdeal.Read.val_main_v25 (F := Ideal) (m ((c.tc : Thread nD τ).loc main_arg0)) (m ((c.tc : Thread nD τ).loc main_arg1))
          (m ((c.tc : Thread nD τ).loc main_arg2)) (m ((c.tc : Thread nD τ).loc main_arg3)) := by
  show StableHlo.after hostOps0 (fun b => m (c, b)) (Proc.devRef .tc main_v25) = _
  after_results_simp
  rfl

end Cert.KernelIdeal.HostChain

end
-- ==== Proof.lean ====
/-
  The kernel and the reference compute one function of their arguments.

  Both programs first form the same table: two rounds of neighbour sums over the edge list (the same host
  operations on the same arguments).  The kernel then treats the table 8000 rows at a time — two residual dense
  layers with a rectifier, then a normalisation of every row — while the reference does the same on the whole table;
  both return the first and the last 100000 rows.  Every entry of the result depends on one row of the table, so the
  blocks are restrictions of one table function, and on the extended reals the two programs spell that function with
  the same operations: a product into a zero accumulator and a sum from the float zero are plain sums, a change of
  float format is the identity, and the transposed weight matrix pairs a row of the table with a row of the weights
  in both.  No property of the numbers is used: the precondition is never opened.  The kernel's idealization
  rewrote nothing, so there is nothing to preserve.
-/
import proofs.«167645_j18580028522708_1_alg».proof.Defs
import proofs.«167645_j18580028522708_1_alg».proof.Proof.Gen.Kernel
import proofs.«167645_j18580028522708_1_alg».proof.Proof.Gen.Kernel.Skeleton
import proofs.«167645_j18580028522708_1_alg».proof.Proof.Gen.Kernel.Launch
import proofs.«167645_j18580028522708_1_alg».proof.Proof.Gen.Kernel.Points
import proofs.«167645_j18580028522708_1_alg».proof.Proof.Gen.Kernel.Frame
import proofs.«167645_j18580028522708_1_alg».proof.Proof.Gen.KernelIdeal
import proofs.«167645_j18580028522708_1_alg».proof.Proof.Gen.KernelIdeal.Skeleton
import proofs.«167645_j18580028522708_1_alg».proof.Proof.Gen.KernelIdeal.Launch
import proofs.«167645_j18580028522708_1_alg».proof.Proof.Gen.KernelIdeal.Points
import proofs.«167645_j18580028522708_1_alg».proof.Proof.Gen.KernelIdeal.Frame
import proofs.«167645_j18580028522708_1_alg».proof.Proof.Gen.ReferenceIdeal
import proofs.«167645_j18580028522708_1_alg».proof.Proof.Gen.Pre_finite_inputs
import proofs.«167645_j18580028522708_1_alg».proof.Proof.Gen.ReferenceIdeal.Run
import proofs.«167645_j18580028522708_1_alg».proof.Proof.Gen.ReferenceIdeal.Read
import proofs.«167645_j18580028522708_1_alg».proof.Proof.KernelTable
import proofs.«167645_j18580028522708_1_alg».proof.Proof.RefRow
import proofs.«167645_j18580028522708_1_alg».proof.Proof.HostChain
import Idealize.ShloMosaic.Adequacy
import Idealize.ShloMosaic.Init

noncomputable section

namespace Cert.Proof

open Idealize.ShloMosaic Idealize.SL.Sem Cert.RowNet

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the arguments, the reference's table before its two slices is the table the kernel's
    output array ends at: both are the row function on every row of the same table of neighbour sums. -/
theorem tables_agree (m : (ℓ : Loc Cert.KernelIdeal.nD Cert.KernelIdeal.τ Cert.KernelIdeal.sig) → Buf (Elt Ideal) ℓ)
    (c : Dev Cert.KernelIdeal.nD)
    (y0 y1 : (⟨Cert.ReferenceIdeal.S3200000, .i32⟩ : BufTy).Contents (Elt Ideal)) (y2 : (⟨Cert.ReferenceIdeal.S3200000, .f32⟩ : BufTy).Contents (Elt Ideal))
    (y3 : (⟨Cert.ReferenceIdeal.S200000x64, .f32⟩ : BufTy).Contents (Elt Ideal)) (y4 : (⟨Cert.ReferenceIdeal.S2x64x64, .f32⟩ : BufTy).Contents (Elt Ideal))
    (y5 : (⟨Cert.ReferenceIdeal.S2x64, .f32⟩ : BufTy).Contents (Elt Ideal)) (y6 y7 : (⟨Cert.ReferenceIdeal.S64, .f32⟩ : BufTy).Contents (Elt Ideal))
    (h0 : y0 = m ((c.tc : Thread Cert.KernelIdeal.nD Cert.KernelIdeal.τ).loc Cert.KernelIdeal.main_arg0))
    (h1 : y1 = m ((c.tc : Thread Cert.KernelIdeal.nD Cert.KernelIdeal.τ).loc Cert.KernelIdeal.main_arg1))
    (h2 : y2 = m ((c.tc : Thread Cert.KernelIdeal.nD Cert.KernelIdeal.τ).loc Cert.KernelIdeal.main_arg2))
    (h3 : y3 = m ((c.tc : Thread Cert.KernelIdeal.nD Cert.KernelIdeal.τ).loc Cert.KernelIdeal.main_arg3))
    (h4 : y4 = m ((c.tc : Thread Cert.KernelIdeal.nD Cert.KernelIdeal.τ).loc Cert.KernelIdeal.main_arg4))
    (h5 : y5 = m ((c.tc : Thread Cert.KernelIdeal.nD Cert.KernelIdeal.τ).loc Cert.KernelIdeal.main_arg5))
    (h6 : y6 = m ((c.tc : Thread Cert.KernelIdeal.nD Cert.KernelIdeal.τ).loc Cert.KernelIdeal.main_arg6))
    (h7 : y7 = m ((c.tc : Thread Cert.KernelIdeal.nD Cert.KernelIdeal.τ).loc Cert.KernelIdeal.main_arg7)) :
    Cert.ReferenceIdeal.Read.val_main_v69 (F := Ideal) y0 y1 y2 y3 y4 y5 y6 y7 = Cert.KernelIdeal.TableValue.tableOut m c := by
  subst h0 h1 h2 h3 h4 h5 h6 h7
  rw [Cert.KernelIdeal.TableValue.tableOut_eq, Cert.KernelIdeal.HostChain.entry_table]
  exact Cert.ReferenceIdeal.RowValue.table_eq _ _ _ _ _ _ _ _

/-- The reference's first result is the first 100000 rows of the kernel's table. -/
theorem lower_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v70 m' c
      = extractStridedSlice Cert.KernelIdeal.S100000x64 ![0, 0] (Cert.KernelIdeal.TableValue.tableOut m c)
          Cert.KernelIdeal.Gen.slices_S200000x64_S100000x64_0_0 := by
  refine (Cert.ReferenceIdeal.Read.val_main_v70_eq m' c).trans ?_
  unfold Cert.ReferenceIdeal.Read.val_main_v70
  rw [tables_agree m c _ _ _ _ _ _ _ _ h0 h1 h2 h3 h4 h5 h6 h7]

/-- The reference's second result is the last 100000 rows of the kernel's table. -/
theorem upper_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v71 m' c
      = extractStridedSlice Cert.KernelIdeal.S100000x64 ![100000, 0] (Cert.KernelIdeal.TableValue.tableOut m c)
          Cert.KernelIdeal.Gen.slices_S200000x64_S100000x64_100000_0 := by
  refine (Cert.ReferenceIdeal.Read.val_main_v71_eq m' c).trans ?_
  unfold Cert.ReferenceIdeal.Read.val_main_v71
  rw [tables_agree m c _ _ _ _ _ _ _ _ h0 h1 h2 h3 h4 h5 h6 h7]

/-- At the extended reals the two programs, from memories agreeing on the arguments, both run and end with the same
    two results: the two halves of one table. -/
theorem algebraic : Cert.algebraic_KernelIdeal_ReferenceIdeal := by
  intro m ρ m' ρ' _ hagree
  refine ⟨_, _, Cert.KernelIdeal.TableValue.run m ρ, ?_⟩
  exact (θ_run Cert.ReferenceIdeal.defs _ _).mono (fun _ h c =>
      ⟨(h c).1.trans (lower_agree m m' c (hagree c).1 (hagree c).2.1 (hagree c).2.2.1 (hagree c).2.2.2.1 (hagree c).2.2.2.2.1
          (hagree c).2.2.2.2.2.1 (hagree c).2.2.2.2.2.2.1 (hagree c).2.2.2.2.2.2.2),
        (h c).2.1.trans (upper_agree m m' c (hagree c).1 (hagree c).2.1 (hagree c).2.2.1 (hagree c).2.2.2.1 (hagree c).2.2.2.2.1
          (hagree c).2.2.2.2.2.1 (hagree c).2.2.2.2.2.2.1 (hagree c).2.2.2.2.2.2.2), (h c).2.2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
